-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x128 .f32) (main_arg2 : FVec F S10000x10000 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256 : Shape := ⟨1, ![256]⟩
abbrev S1x256 : Shape := ⟨2, ![1, 256]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S256, .f32⟩
  | .hbm, ⟨6, _⟩ => ⟨S1x256, .f32⟩
  | .hbm, ⟨7, _⟩ => ⟨S10000x128, .f32⟩
  | .hbm, ⟨8, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x256, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128_S128_S256_d0 : Shape.Concatenates [S128, S128] S256 0
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x256_S10000x128_0_0 : ∀ a, (![0, 0] : Fin 2 → Nat) a + S10000x128.size a ≤ S10000x256.size a
  shapeCasts_S10000x128_S10000x128 : S10000x128.ShapeCasts S10000x128
  inb_S10000x256_S10000x128_0_128 : ∀ a, (![0, 128] : Fin 2 → Nat) a + S10000x128.size a ≤ S10000x256.size a
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  slices_S400x256_o0_0_S400x128 : S400x256.Slices ![0, 0] S400x128
  inb_S400x128_S400x128_0_0 : ∀ a, (![0, 0] : Fin 2 → Nat) a + S400x128.size a ≤ S400x128.size a
  h_S400x128 : 0 < S400x128.numel
  slices_S400x256_o0_128_S400x128 : S400x256.Slices ![0, 128] S400x128
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_call1_cst : Ref sig .tc := ⟨.hbm, 18, rfl⟩
abbrev main_call1_v0 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values.

  At the first grid point the body fills the carried buffer of shape [10000, 256] with two products: columns
  [0, 128) receive feature_ori · weight and columns [128, 256) receive feature_aug · weight. At every point the
  body multiplies its block of 400 adjacency rows by the whole carried buffer, adds the doubled bias row, clips at
  zero, and stores the left and right halves of the [400, 256] result into the two output blocks. At the first
  point the carried buffer it multiplies by is the one it has just filled; at a later point it is whatever the
  point before left, which the body does not touch.
-/
import proofs.«168208_g18528488915635_cont_8to1_1622_11_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer

open Cert.KernelIdeal Cert.KernelIdeal.Gen

variable {F : FTy → Type} [FloatOps F]

theorem zeroOffsets : (![0, 0] : Fin 2 → Nat) = fun _ => 0 := funext fun a => by fin_cases a <;> rfl

/-- The carried buffer once the first point has filled it: the product with feature_ori laid in the left 128
    columns, the product with feature_aug in the right 128. -/
def support (x0 x1 : Vec F S10000x128 .f32) (x2 : Vec F S128x128 .f32) : Vec F S10000x256 .f32 :=
  View.canon
    [(⟨Rect.unit ![0, 128] S10000x128.size Facts₀.inb_S10000x256_S10000x128_0_128, k0_pay2 x1 x2⟩ : View.Piece (Elt F) S10000x256 .f32),
     (⟨Rect.unit ![0, 0] S10000x128.size Facts₀.inb_S10000x256_S10000x128_0_0, k0_pay1 x0 x2⟩ : View.Piece (Elt F) S10000x256 .f32)]

/-- A load of a whole buffer after a list of stores reads what the stores left. -/
theorem readCov_whole {sg : RefSig} {κ : Kind} {sp : Space} {S : Shape} {e : EltTy} (v : View sg κ sp S e)
    {off : Fin S.rank → Nat} (h : off = fun _ => 0) (inb : ∀ a, off a + S.size a ≤ S.size a)
    (L : List (View.Piece (Elt F) S e)) :
    v.readCov L (Rect.unit off S.size inb).toLoadRect = View.canon L := by
  rw [View.readCov_eq_canon']
  exact View.ld_unit_zero h inb (View.canon L)

section Cases

variable (c : Dev nD) (i : grid0.Coords)
  (a1 : Memref sig .tc .vmem S10000x128 .f32) (h1 : a1.IsWhole) (a2 : Memref sig .tc .vmem S10000x128 .f32) (h2 : a2.IsWhole)
  (a3 : Memref sig .tc .vmem S128x128 .f32) (h3 : a3.IsWhole) (a4 : Memref sig .tc .vmem S1x256 .f32) (h4 : a4.IsWhole)
  (a5 : Memref sig .tc .vmem S400x10000 .f32) (h5 : a5.IsWhole) (a6 : Memref sig .tc .vmem S400x128 .f32) (h6 : a6.IsWhole)
  (a7 : Memref sig .tc .vmem S400x128 .f32) (h7 : a7.IsWhole) (a8 : Memref sig .tc .vmem S10000x256 .f32) (h8 : a8.IsWhole)
  (x0 x1 : Vec F S10000x128 .f32) (x2 : Vec F S128x128 .f32) (x3 : Vec F S1x256 .f32) (x4 : Vec F S400x10000 .f32)

/-- First point: the carried buffer ends at the two products side by side. -/
theorem carried_first (hc : cond0_0 i) :
    sout0_A_0 c i a1 h1 a2 h2 a3 h3 a4 h4 a5 h5 a6 h6 a7 h7 a8 h8 hc x0 x1 x2 x3 x4 = support x0 x1 x2 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  simp only [View.readAt_eq_ld, h1.read_unread, h2.read_unread, h3.read_unread,
    View.ld_unit_zero (S := S10000x128) zeroOffsets, View.ld_unit_zero (S := S128x128) zeroOffsets]
  rfl

/-- First point: the left output block is the left half of the clipped sum over the buffer just filled. -/
theorem left_first (hc : cond0_0 i) :
    out0_A_5 c i a1 h1 a2 h2 a3 h3 a4 h4 a5 h5 a6 h6 a7 h7 a8 h8 hc x0 x1 x2 x3 x4 = k0_pay4 x4 (support x0 x1 x2) x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero zeroOffsets, readCov_whole _ zeroOffsets]
  simp only [View.readAt_eq_ld, h1.read_unread, h2.read_unread, h3.read_unread, h4.read_unread, h5.read_unread,
    View.ld_unit_zero (S := S10000x128) zeroOffsets, View.ld_unit_zero (S := S128x128) zeroOffsets,
    View.ld_unit_zero (S := S1x256) zeroOffsets, View.ld_unit_zero (S := S400x10000) zeroOffsets]
  rfl

/-- First point: the right output block is the right half. -/
theorem right_first (hc : cond0_0 i) :
    out0_A_6 c i a1 h1 a2 h2 a3 h3 a4 h4 a5 h5 a6 h6 a7 h7 a8 h8 hc x0 x1 x2 x3 x4 = k0_pay5 x4 (support x0 x1 x2) x3 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero zeroOffsets, readCov_whole _ zeroOffsets]
  simp only [View.readAt_eq_ld, h1.read_unread, h2.read_unread, h3.read_unread, h4.read_unread, h5.read_unread,
    View.ld_unit_zero (S := S10000x128) zeroOffsets, View.ld_unit_zero (S := S128x128) zeroOffsets,
    View.ld_unit_zero (S := S1x256) zeroOffsets, View.ld_unit_zero (S := S400x10000) zeroOffsets]
  rfl

variable (xs : Vec F S10000x256 .f32)

/-- Later point: the left output block is the left half of the clipped sum over the carried buffer as found. -/
theorem left_later (hc : ¬cond0_0 i) :
    out0_B_5 c i a1 h1 a2 h2 a3 h3 a4 h4 a5 h5 a6 h6 a7 h7 a8 h8 hc x0 x1 x2 x3 x4 xs = k0_pay4 x4 xs x3 := by
  unfold out0_B_5
  rw [View.read_writes_eq_canon _ _ _ (cover0_B_5 c i a1 h1 a2 h2 a3 h3 a4 h4 a5 h5 a6 h6 a7 h7 a8 h8 hc x0 x1 x2 x3 x4 xs)]
  unfold kernelRun0_B
  dsimp only
  rw [View.canon_unit_zero zeroOffsets]
  simp only [View.readAt_eq_ld, h4.read_unread, h5.read_unread, h8.read_unread,
    View.ld_unit_zero (S := S1x256) zeroOffsets, View.ld_unit_zero (S := S400x10000) zeroOffsets,
    View.ld_unit_zero (S := S10000x256) zeroOffsets]

/-- Later point: the right output block is the right half. -/
theorem right_later (hc : ¬cond0_0 i) :
    out0_B_6 c i a1 h1 a2 h2 a3 h3 a4 h4 a5 h5 a6 h6 a7 h7 a8 h8 hc x0 x1 x2 x3 x4 xs = k0_pay5 x4 xs x3 := by
  unfold out0_B_6
  rw [View.read_writes_eq_canon _ _ _ (cover0_B_6 c i a1 h1 a2 h2 a3 h3 a4 h4 a5 h5 a6 h6 a7 h7 a8 h8 hc x0 x1 x2 x3 x4 xs)]
  unfold kernelRun0_B
  dsimp only
  rw [View.canon_unit_zero zeroOffsets]
  simp only [View.readAt_eq_ld, h4.read_unread, h5.read_unread, h8.read_unread,
    View.ld_unit_zero (S := S1x256) zeroOffsets, View.ld_unit_zero (S := S400x10000) zeroOffsets,
    View.ld_unit_zero (S := S10000x256) zeroOffsets]

end Cases

end Cert.KernelIdeal.Layer

end
-- ==== Proof.Blocks.lean ====
/-
  The window blocks as parts of the argument arrays, and what the grid leaves point by point.

  The two feature arrays, the weight and the doubled bias row are staged whole at every point: their block index
  never moves. The adjacency block at point t is rows [400 t, 400 t + 400). Since only the first point writes the
  carried buffer, after every point it holds the two products of the whole feature arrays with the weight; so at
  every point, first or later, each output block is the corresponding half of the clipped sum of the adjacency
  block against that one buffer.
-/
import proofs.«168208_g18528488915635_cont_8to1_1622_11_alg».proof.Proof.Pieces
import Idealize.ShloMosaic.Lib.ValueIdx

noncomputable section

open Idealize.ShloMosaic Idealize.ShloMosaic.TcCoe Idealize.SL.Sem
open Idealize.ShloMosaic.ValueIdx

namespace Cert.KernelIdeal.Layer

open Cert.KernelIdeal Cert.KernelIdeal.Gen

variable {F : FTy → Type} [FloatOps F]
variable (m : (ℓ : Loc nD τ sig) → Buf (Elt F) ℓ)

/-- The four whole-array windows sit at block (0, 0) at every grid point. -/
theorem index_fixed : ∀ t : Fin cfg0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0) :=
  (by decide +kernel : ∀ t : Fin grid0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0))

/-- The adjacency window and the two output windows sit at block (t, 0) at grid point t. -/
theorem index_rows : ∀ t : Fin cfg0.N,
    (win0_4.index t 0 = t.val ∧ win0_4.index t 1 = 0) ∧ (win0_5.index t 0 = t.val ∧ win0_5.index t 1 = 0)
      ∧ (win0_6.index t 0 = t.val ∧ win0_6.index t 1 = 0) :=
  (by decide +kernel : ∀ t : Fin grid0.N,
    (win0_4.index t 0 = t.val ∧ win0_4.index t 1 = 0) ∧ (win0_5.index t 0 = t.val ∧ win0_5.index t 1 = 0)
      ∧ (win0_6.index t 0 = t.val ∧ win0_6.index t 1 = 0))

/-- The block of feature_ori at any point is the whole array. -/
theorem block_ori (c : Dev nD) (t : Fin cfg0.N) : (iblk m c 0 t : Vec F S10000x128 .f32) = V m c main_arg0 := by
  funext j
  unfold iblk
  rw [View.read_apply]
  show V m c main_arg0 _ = V m c main_arg0 j
  refine congrArg (V m c main_arg0) (funext fun a => Fin.ext ?_)
  have hi := (index_fixed t).1
  match a with
  | ⟨0, _⟩ => show win0_0.index t 0 * 10000 + 1 * (j 0).val = (j 0).val; rw [hi.1]; omega
  | ⟨1, _⟩ => show win0_0.index t 1 * 128 + 1 * (j 1).val = (j 1).val; rw [hi.2]; omega

/-- The block of feature_aug at any point is the whole array. -/
theorem block_aug (c : Dev nD) (t : Fin cfg0.N) : (iblk m c 1 t : Vec F S10000x128 .f32) = V m c main_arg1 := by
  funext j
  unfold iblk
  rw [View.read_apply]
  show V m c main_arg1 _ = V m c main_arg1 j
  refine congrArg (V m c main_arg1) (funext fun a => Fin.ext ?_)
  have hi := (index_fixed t).2.1
  match a with
  | ⟨0, _⟩ => show win0_1.index t 0 * 10000 + 1 * (j 0).val = (j 0).val; rw [hi.1]; omega
  | ⟨1, _⟩ => show win0_1.index t 1 * 128 + 1 * (j 1).val = (j 1).val; rw [hi.2]; omega

/-- The block of the weight at any point is the whole array. -/
theorem block_weight (c : Dev nD) (t : Fin cfg0.N) : (iblk m c 2 t : Vec F S128x128 .f32) = V m c main_arg3 := by
  funext j
  unfold iblk
  rw [View.read_apply]
  show V m c main_arg3 _ = V m c main_arg3 j
  refine congrArg (V m c main_arg3) (funext fun a => Fin.ext ?_)
  have hi := (index_fixed t).2.2.1
  match a with
  | ⟨0, _⟩ => show win0_2.index t 0 * 128 + 1 * (j 0).val = (j 0).val; rw [hi.1]; omega
  | ⟨1, _⟩ => show win0_2.index t 1 * 128 + 1 * (j 1).val = (j 1).val; rw [hi.2]; omega

/-- The block of the doubled bias row at any point is the whole row. -/
theorem block_bias (c : Dev nD) (t : Fin cfg0.N) : (iblk m c 3 t : Vec F S1x256 .f32) = V m c main_v1 := by
  funext j
  unfold iblk
  rw [View.read_apply]
  show V m c main_v1 _ = V m c main_v1 j
  refine congrArg (V m c main_v1) (funext fun a => Fin.ext ?_)
  have hi := (index_fixed t).2.2.2
  match a with
  | ⟨0, _⟩ => show win0_3.index t 0 * 1 + 1 * (j 0).val = (j 0).val; rw [hi.1]; omega
  | ⟨1, _⟩ => show win0_3.index t 1 * 256 + 1 * (j 1).val = (j 1).val; rw [hi.2]; omega

/-- Row p of a block of 400 rows at grid point t is row 400 t + p of the array. -/
theorem blockRow_lt (t : Fin cfg0.N) (p : Fin 400) : 400 * t.val + p.val < 10000 := by
  have h1 := t.isLt
  have hN : cfg0.N = 25 := N_0
  have h2 := p.isLt
  omega

/-- The adjacency block at point t, at (p, k), is the adjacency matrix at (400 t + p, k). -/
theorem block_adj_apply (c : Dev nD) (t : Fin cfg0.N) (p : Fin 400) (k : Fin 10000) :
    (iblk m c 4 t : Vec F S400x10000 .f32) (ix2 p k)
      = V m c main_arg2 (ix2 (⟨400 * t.val + p.val, blockRow_lt t p⟩ : Fin 10000) k) := by
  unfold iblk
  rw [View.read_apply]
  show V m c main_arg2 _ = V m c main_arg2 _
  refine congrArg (V m c main_arg2) (funext fun a => Fin.ext ?_)
  have hi := (index_rows t).1
  match a with
  | ⟨0, _⟩ => show win0_4.index t 0 * 400 + 1 * p.val = 400 * t.val + p.val; rw [hi.1]; omega
  | ⟨1, _⟩ => show win0_4.index t 1 * 10000 + 1 * k.val = k.val; rw [hi.2]; omega

/-- The carried buffer as every point but none before the first finds it: the two whole products. -/
abbrev carried (c : Dev nD) : Vec F S10000x256 .f32 :=
  support (V m c main_arg0 : Vec F S10000x128 .f32) (V m c main_arg1 : Vec F S10000x128 .f32) (V m c main_arg3 : Vec F S128x128 .f32)

/-- After every grid point the carried buffer holds the two whole products: the first point stores them, the
    later points leave the buffer alone. -/
theorem carried_after (c : Dev nD) : ∀ (n : ℕ) (h : n < cfg0.N), (outsAt0 m c n h).2.2 = carried m c
  | 0, h => by
    rw [outsAt0_A m c ⟨0, h⟩ rfl]
    dsimp only
    rw [carried_first, block_ori, block_aug, block_weight]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact carried_after c n (Nat.lt_of_succ_lt h)

/-- At every grid point the left output block is the left half of the clipped sum of the point's adjacency rows
    against the two whole products, plus the doubled bias row. -/
theorem left_at (c : Dev nD) (t : Fin cfg0.N) :
    (outsAt0 m c t.val t.isLt).1 = k0_pay4 (iblk m c 4 t) (carried m c) (V m c main_v1 : Vec F S1x256 .f32) := by
  by_cases h0 : t.val % 25 = 0
  · rw [outsAt0_A m c t h0]
    dsimp only
    rw [left_first, block_ori, block_aug, block_weight, block_bias]
  · rw [outsAt0_B m c t h0]
    dsimp only
    rw [left_later, carried_after, block_bias]

/-- And the right output block is the right half. -/
theorem right_at (c : Dev nD) (t : Fin cfg0.N) :
    (outsAt0 m c t.val t.isLt).2.1 = k0_pay5 (iblk m c 4 t) (carried m c) (V m c main_v1 : Vec F S1x256 .f32) := by
  by_cases h0 : t.val % 25 = 0
  · rw [outsAt0_A m c t h0]
    dsimp only
    rw [right_first, block_ori, block_aug, block_weight, block_bias]
  · rw [outsAt0_B m c t h0]
    dsimp only
    rw [right_later, carried_after, block_bias]

end Cert.KernelIdeal.Layer

end
-- ==== Proof.Entries.lean ====
/-
  The body's arithmetic over the extended reals, one entry at a time.

  A matrix product into a zero accumulator is, at entry (r, q), the sum over the contracted axis of the operands'
  products. The carried buffer at (k, q) is the product with feature_ori at (k, q) for q < 128 and the product with
  feature_aug at (k, q - 128) for q ≥ 128. The clipped sum at (p, q) is the larger of zero and the adjacency row p
  against column q of the carried buffer plus the bias row at q; the two output blocks are its columns [0, 128)
  and [128, 256).
-/
import proofs.«168208_g18528488915635_cont_8to1_1622_11_alg».proof.Proof.Pieces
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Layer

open Cert.KernelIdeal Cert.KernelIdeal.Gen

/-! ## The two matrix products at an entry -/

theorem feat_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem feat_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem feat_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem feat_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The features-by-weight product at entry (k, q): the sum over the 128 shared coordinates. -/
theorem featProduct_apply (x : FVec Ideal S10000x128 .f32) (w : FVec Ideal S128x128 .f32) (k : Fin 10000) (q : Fin 128) :
    matmul (F := Ideal) dot_S10000x128_S128x128_S10000x128_1_0_0_1_n_n none x w (constant S10000x128 .f32 0x00000000#32) (ix2 k q)
      = ∑ j : Fin 128, x (ix2 k j) * w (ix2 j q) := by
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k q) ((contrEquiv1 dot_S10000x128_S128x128_S10000x128_1_0_0_1_n_n 128 rfl rfl).symm j) = ix2 k j :=
    funext fun a => Fin.ext (by
      match a with
      | ⟨0, _⟩ => exact feat_lhs0 _ _
      | ⟨1, _⟩ => exact (feat_lhs1 _ _).trans hj)
  have er : dot_S10000x128_S128x128_S10000x128_1_0_0_1_n_n.rhsIdx (ix2 k q) ((contrEquiv1 dot_S10000x128_S128x128_S10000x128_1_0_0_1_n_n 128 rfl rfl).symm j) = ix2 j q :=
    funext fun a => Fin.ext (by
      match a with
      | ⟨0, _⟩ => exact (feat_rhs0 _ _).trans hj
      | ⟨1, _⟩ => exact feat_rhs1 _ _)
  rw [el, er]

theorem row_lhs0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl
theorem row_lhs1 (i : S400x256.Idx) (q : dot_S400x10000_S10000x256_S400x256_1_0_0_1_n_n.contr.Idx) : (dot_S400x10000_S10000x256_S400x256_1_0_0_1_n_n.lhsIdx i q 1).val = (q ⟨0, by decide⟩).val :=
  dot_S400x10000_S10000x256_S400x256_1_0_0_1_n_n.lhsIdx_val_of_single rfl i q
theorem row_rhs0 (i : S400x256.Idx) (q : dot_S400x10000_S10000x256_S400x256_1_0_0_1_n_n.contr.Idx) : (dot_S400x10000_S10000x256_S400x256_1_0_0_1_n_n.rhsIdx i q 0).val = (q ⟨0, by decide⟩).val :=
  dot_S400x10000_S10000x256_S400x256_1_0_0_1_n_n.rhsIdx_val_of_single rfl i q
theorem row_rhs1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

/-- The adjacency-rows-by-carried-buffer product at entry (p, q): the sum over the 10000 shared coordinates. -/
theorem rowProduct_apply (x : FVec Ideal S400x10000 .f32) (s : FVec Ideal S10000x256 .f32) (p : Fin 400) (q : Fin 256) :
    matmul (F := Ideal) dot_S400x10000_S10000x256_S400x256_1_0_0_1_n_n none x s (constant S400x256 .f32 0x00000000#32) (ix2 p q)
      = ∑ k : Fin 10000, x (ix2 p k) * s (ix2 k q) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k :=
    funext fun a => Fin.ext (by
      match a with
      | ⟨0, _⟩ => exact row_lhs0 _ _
      | ⟨1, _⟩ => exact (row_lhs1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q :=
    funext fun a => Fin.ext (by
      match a with
      | ⟨0, _⟩ => exact (row_rhs0 _ _).trans hk
      | ⟨1, _⟩ => exact row_rhs1 _ _)
  rw [el, er]

/-! ## The stored values at an entry -/

theorem oriProduct_apply (x0 : Vec Ideal S10000x128 .f32) (x2 : Vec Ideal S128x128 .f32) (k : Fin 10000) (q : Fin 128) :
    k0_pay1 x0 x2 (ix2 k q) = ∑ j : Fin 128, x0 (ix2 k j) * x2 (ix2 j q) := by
  unfold k0_pay1
  rw [shapeCast_self]
  exact featProduct_apply x0 x2 k q

theorem augProduct_apply (x1 : Vec Ideal S10000x128 .f32) (x2 : Vec Ideal S128x128 .f32) (k : Fin 10000) (q : Fin 128) :
    k0_pay2 x1 x2 (ix2 k q) = ∑ j : Fin 128, x1 (ix2 k j) * x2 (ix2 j q) := by
  unfold k0_pay2
  rw [shapeCast_self]
  exact featProduct_apply x1 x2 k q

/-- The carried buffer's left half is the product with feature_ori. -/
theorem support_left (x0 x1 : Vec Ideal S10000x128 .f32) (x2 : Vec Ideal S128x128 .f32) (k : Fin 10000) (q : Fin 256)
    (hq : q.val < 128) : support x0 x1 x2 (ix2 k q) = k0_pay1 x0 x2 (ix2 k ⟨q.val, hq⟩) := by
  unfold support
  rw [View.canon_cons_of_not_mem _ _ (by
    rw [Rect.mem_set_unit]
    intro hall
    have := hall 1
    have e : ((ix2 k q : S10000x256.Idx) 1).val = q.val := rfl
    simp only [e] at this
    have h2 : (![0, 128] : Fin 2 → Nat) 1 = 128 := rfl
    omega)]
  have hy : (Rect.unit (s := S10000x256) ![0, 0] S10000x128.size Facts₀.inb_S10000x256_S10000x128_0_0).emb
      (ix2 k ⟨q.val, hq⟩ : S10000x128.Idx) = (ix2 k q : S10000x256.Idx) := funext fun a => Fin.ext (by
    match a with
    | ⟨0, _⟩ => show 0 + 1 * k.val = k.val; omega
    | ⟨1, _⟩ => show 0 + 1 * q.val = q.val; omega)
  rw [← hy]
  exact View.canon_cons_emb _ _ _ _

/-- The carried buffer's right half is the product with feature_aug. -/
theorem support_right (x0 x1 : Vec Ideal S10000x128 .f32) (x2 : Vec Ideal S128x128 .f32) (k : Fin 10000) (q : Fin 256)
    (hq : 128 ≤ q.val) : support x0 x1 x2 (ix2 k q) = k0_pay2 x1 x2 (ix2 k ⟨q.val - 128, by have := q.isLt; omega⟩) := by
  unfold support
  have hy : (Rect.unit (s := S10000x256) ![0, 128] S10000x128.size Facts₀.inb_S10000x256_S10000x128_0_128).emb
      (ix2 k ⟨q.val - 128, by have := q.isLt; omega⟩ : S10000x128.Idx) = (ix2 k q : S10000x256.Idx) := funext fun a => Fin.ext (by
    match a with
    | ⟨0, _⟩ => show 0 + 1 * k.val = k.val; omega
    | ⟨1, _⟩ => show 128 + 1 * (q.val - 128) = q.val; omega)
  rw [← hy]
  exact View.canon_cons_emb _ _ _ _

/-- The clipped sum at entry (p, q). -/
theorem clipped_apply (x4 : Vec Ideal S400x10000 .f32) (s : Vec Ideal S10000x256 .f32) (x3 : Vec Ideal S1x256 .f32)
    (p : Fin 400) (q : Fin 256) :
    k0_pay3 x4 s x3 (ix2 p q)
      = max ((∑ k : Fin 10000, x4 (ix2 p k) * s (ix2 k q)) + x3 (ix2 (0 : Fin 1) q)) (Ideal.ofBits .f32 0x00000000#32) := by
  unfold k0_pay3
  rw [maximumf_apply, addf_apply, rowProduct_apply, shapeCast_self, broadcastTo_1b_ab_apply]
  rfl

/-- The left output block at (p, q) is the clipped sum at (p, q). -/
theorem leftHalf_apply (x4 : Vec Ideal S400x10000 .f32) (s : Vec Ideal S10000x256 .f32) (x3 : Vec Ideal S1x256 .f32)
    (p : Fin 400) (q : Fin 128) :
    k0_pay4 x4 s x3 (ix2 p q) = k0_pay3 x4 s x3 (ix2 p ⟨q.val, by have := q.isLt; omega⟩) := by
  unfold k0_pay4
  exact slice2_axis1_apply 0 _ _ p q _ (by show q.val = 0 + q.val; omega)

/-- The right output block at (p, q) is the clipped sum at (p, 128 + q). -/
theorem rightHalf_apply (x4 : Vec Ideal S400x10000 .f32) (s : Vec Ideal S10000x256 .f32) (x3 : Vec Ideal S1x256 .f32)
    (p : Fin 400) (q : Fin 128) :
    k0_pay5 x4 s x3 (ix2 p q) = k0_pay3 x4 s x3 (ix2 p ⟨128 + q.val, by have := q.isLt; omega⟩) := by
  unfold k0_pay5
  exact slice2_axis1_apply 128 _ _ p q _ rfl

/-! ## An output entry as a double sum -/

/-- The left output block at (p, q): the point's adjacency row p against column q of feature_ori · weight, plus the
    bias row at q, clipped at zero. -/
theorem leftEntry (x4 : Vec Ideal S400x10000 .f32) (x0 x1 : Vec Ideal S10000x128 .f32) (x2 : Vec Ideal S128x128 .f32)
    (x3 : Vec Ideal S1x256 .f32) (p : Fin 400) (q : Fin 128) :
    k0_pay4 (F := Ideal) x4 (support (F := Ideal) x0 x1 x2) x3 (ix2 p q)
      = max ((∑ k : Fin 10000, x4 (ix2 p k) * ∑ j : Fin 128, x0 (ix2 k j) * x2 (ix2 j q))
          + x3 (ix2 (0 : Fin 1) (⟨q.val, by have := q.isLt; omega⟩ : Fin 256))) (Ideal.ofBits .f32 0x00000000#32) := by
  have hs : ∀ k : Fin 10000, support (F := Ideal) x0 x1 x2 (ix2 k (⟨q.val, by have := q.isLt; omega⟩ : Fin 256))
      = ∑ j : Fin 128, x0 (ix2 k j) * x2 (ix2 j q) := fun k => by
    rw [support_left x0 x1 x2 k ⟨q.val, by have := q.isLt; omega⟩ q.isLt]
    exact oriProduct_apply x0 x2 k q
  rw [leftHalf_apply, clipped_apply]
  simp only [hs]

/-- The right output block at (p, q): the same with feature_aug, the bias row read at 128 + q. -/
theorem rightEntry (x4 : Vec Ideal S400x10000 .f32) (x0 x1 : Vec Ideal S10000x128 .f32) (x2 : Vec Ideal S128x128 .f32)
    (x3 : Vec Ideal S1x256 .f32) (p : Fin 400) (q : Fin 128) :
    k0_pay5 (F := Ideal) x4 (support (F := Ideal) x0 x1 x2) x3 (ix2 p q)
      = max ((∑ k : Fin 10000, x4 (ix2 p k) * ∑ j : Fin 128, x1 (ix2 k j) * x2 (ix2 j q))
          + x3 (ix2 (0 : Fin 1) (⟨128 + q.val, by have := q.isLt; omega⟩ : Fin 256))) (Ideal.ofBits .f32 0x00000000#32) := by
  have e : (⟨128 + q.val - 128, by have := q.isLt; omega⟩ : Fin 128) = q := Fin.ext (by show 128 + q.val - 128 = q.val; omega)
  have hs : ∀ k : Fin 10000, support (F := Ideal) x0 x1 x2 (ix2 k (⟨128 + q.val, by have := q.isLt; omega⟩ : Fin 256))
      = ∑ j : Fin 128, x1 (ix2 k j) * x2 (ix2 j q) := fun k => by
    rw [support_right x0 x1 x2 k ⟨128 + q.val, by have := q.isLt; omega⟩ (Nat.le_add_right 128 q.val)]
    show k0_pay2 (F := Ideal) x1 x2 (ix2 k (⟨128 + q.val - 128, _⟩ : Fin 128)) = _
    rw [e]
    exact augProduct_apply x1 x2 k q
  rw [rightHalf_apply, clipped_apply]
  simp only [hs]

end Cert.KernelIdeal.Layer

end
-- ==== Proof.HostRow.lean ====
/-
  The doubled bias row the kernel is launched with: the host concatenates the bias with itself and reshapes the 256
  numbers to one row, so the row at column q is bias(q) for q < 128 and bias(q - 128) from there on.
-/
import proofs.«168208_g18528488915635_cont_8to1_1622_11_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.ValueIdx

namespace Cert.KernelIdeal.Layer

open Cert.KernelIdeal Cert.KernelIdeal.Gen

variable {F : FTy → Type} [FloatOps F]
variable (m : (ℓ : Loc nD τ sig) → Buf (Elt F) ℓ)

/-- The row as the host operations build it from the bias. -/
theorem biasRow_eq (c : Dev nD) :
    (V m c main_v1 : S1x256.Idx → Elt F .f32)
      = shapeCast S1x256 (concatenate S256 0
          [⟨S128, (m ((c : Thread nD τ).loc main_arg4) : S128.Idx → Elt F .f32)⟩,
           ⟨S128, (m ((c : Thread nD τ).loc main_arg4) : S128.Idx → Elt F .f32)⟩]
          Facts₀.concatenates_S128_S128_S256_d0) Facts₀.shapeCasts_S256_S1x256 := by
  dsimp only [Gen.V, Gen.hostOps0]
  after_results
  rfl

/-- Columns below 128 read the bias there. -/
theorem biasRow_left (c : Dev nD) (u : Fin 1) (q : Fin 256) (hq : q.val < 128) :
    (V m c main_v1 : S1x256.Idx → Elt F .f32) (ix2 u q) = m ((c : Thread nD τ).loc main_arg4) (ix1 (⟨q.val, hq⟩ : Fin 128)) := by
  rw [biasRow_eq, shapeCast_a_1a_apply]
  exact concatenate_pair_apply_left (t := S256) (s₁ := S128) (s₂ := S128) 0 _ _ _ (ix1 q) rfl (ix1 (⟨q.val, hq⟩ : Fin 128))
    (fun b => by match b with | ⟨0, _⟩ => rfl)

/-- Columns from 128 on read the bias 128 columns back. -/
theorem biasRow_right (c : Dev nD) (u : Fin 1) (q : Fin 256) (hq : 128 ≤ q.val) :
    (V m c main_v1 : S1x256.Idx → Elt F .f32) (ix2 u q)
      = m ((c : Thread nD τ).loc main_arg4) (ix1 (⟨q.val - 128, by have := q.isLt; omega⟩ : Fin 128)) := by
  rw [biasRow_eq, shapeCast_a_1a_apply]
  exact concatenate_pair_apply_right (t := S256) (s₁ := S128) (s₂ := S128) 0 _ _ _ (ix1 q) rfl rfl
    (ix1 (⟨q.val - 128, by have := q.isLt; omega⟩ : Fin 128))
    (fun b hb => by match b with | ⟨0, _⟩ => exact absurd rfl hb)
    (by show q.val - 128 + 128 = q.val; omega)

end Cert.KernelIdeal.Layer

end
-- ==== Proof.Spec.lean ====
/-
  The layer both programs compute, as one function of the argument arrays, entry by entry:

      out(r, c) = max( Σ_k adjacency(r, k) · ( Σ_j feature(k, j) · weight(j, c) ) + bias(c), 0 )

  over the extended reals, for r < 10000 and c < 128. The same function is applied to feature_ori and to
  feature_aug. The zero is kept as the float word both programs print.
-/
import Idealize.ShloMosaic.PureOps.Ideal
import Idealize.ShloMosaic.Lib.ValueIdx

noncomputable section

namespace Cert.Spec

open Idealize.ShloMosaic Idealize.ShloMosaic.ValueIdx

/-- relu(adjacency · (feature · weight) + bias) at entry `i`. -/
def layer (f : FVec Ideal ⟨2, ![10000, 128]⟩ .f32) (adj : FVec Ideal ⟨2, ![10000, 10000]⟩ .f32)
    (w : FVec Ideal ⟨2, ![128, 128]⟩ .f32) (b : FVec Ideal ⟨1, ![128]⟩ .f32) : FVec Ideal ⟨2, ![10000, 128]⟩ .f32 :=
  fun i => max ((∑ k : Fin 10000, adj (ix2 (i 0) k) * ∑ j : Fin 128, f (ix2 k j) * w (ix2 j (i 1))) + b (ix1 (i 1)))
    (Ideal.ofBits .f32 0x00000000#32)

end Cert.Spec

end
-- ==== Proof.Result.lean ====
/-
  The two result arrays after the run.

  Grid point t writes back rows [400 t, 400 t + 400) of each result. Entry (p, q) of the left block is the clipped
  sum of adjacency row 400 t + p against column q of feature_ori · weight plus bias(q): the layer of feature_ori at
  (400 t + p, q). The right block is the same with feature_aug, its bias read at column 128 + q of the doubled row,
  which is bias(q) again. The 25 blocks tile the 10000 rows, so each result array ends at the layer of its feature
  array.
-/
import proofs.«168208_g18528488915635_cont_8to1_1622_11_alg».proof.Proof.Blocks
import proofs.«168208_g18528488915635_cont_8to1_1622_11_alg».proof.Proof.Entries
import proofs.«168208_g18528488915635_cont_8to1_1622_11_alg».proof.Proof.HostRow
import proofs.«168208_g18528488915635_cont_8to1_1622_11_alg».proof.Proof.Spec
import proofs.«168208_g18528488915635_cont_8to1_1622_11_alg».proof.Proof.Gen.KernelIdeal.Value

noncomputable section

open Idealize.ShloMosaic Idealize.ShloMosaic.TcCoe Idealize.SL.Sem
open Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-- The layer of feature_ori, as contents of the first result array. -/
abbrev oriOut (c : Dev nD) : Buf (Elt Ideal) ((c : Thread nD τ).loc main_v2_0) :=
  Cert.Spec.layer (m ((c : Thread nD τ).loc main_arg0)) (m ((c : Thread nD τ).loc main_arg2))
    (m ((c : Thread nD τ).loc main_arg3)) (m ((c : Thread nD τ).loc main_arg4))

/-- The layer of feature_aug, as contents of the second result array. -/
abbrev augOut (c : Dev nD) : Buf (Elt Ideal) ((c : Thread nD τ).loc main_v2_1) :=
  Cert.Spec.layer (m ((c : Thread nD τ).loc main_arg1)) (m ((c : Thread nD τ).loc main_arg2))
    (m ((c : Thread nD τ).loc main_arg3)) (m ((c : Thread nD τ).loc main_arg4))

/-! ## Where a block entry sits in the array -/

theorem left_emb (t : Fin cfg0.N) (p : Fin 400) (q : Fin 128) :
    ((cfg0.win 5).blk t).view.emb (ix2 p q : S400x128.Idx)
      = (ix2 (⟨400 * t.val + p.val, blockRow_lt t p⟩ : Fin 10000) q : S10000x128.Idx) := by
  have hi := (index_rows t).2.1
  funext a
  apply Fin.ext
  match a with
  | ⟨0, _⟩ => show win0_5.index t 0 * 400 + 1 * p.val = 400 * t.val + p.val; rw [hi.1]; omega
  | ⟨1, _⟩ => show win0_5.index t 1 * 128 + 1 * q.val = q.val; rw [hi.2]; omega

theorem right_emb (t : Fin cfg0.N) (p : Fin 400) (q : Fin 128) :
    ((cfg0.win 6).blk t).view.emb (ix2 p q : S400x128.Idx)
      = (ix2 (⟨400 * t.val + p.val, blockRow_lt t p⟩ : Fin 10000) q : S10000x128.Idx) := by
  have hi := (index_rows t).2.2
  funext a
  apply Fin.ext
  match a with
  | ⟨0, _⟩ => show win0_6.index t 0 * 400 + 1 * p.val = 400 * t.val + p.val; rw [hi.1]; omega
  | ⟨1, _⟩ => show win0_6.index t 1 * 128 + 1 * q.val = q.val; rw [hi.2]; omega

/-! ## What each point writes back -/

/-- Point t writes back block t of the layer of feature_ori. -/
theorem flushed_left (c : Dev nD) (t : Fin cfg0.N) :
    (dats m 0 c).flushed 5 t = ((cfg0.win 5).blk t).view.read (Elt Ideal) (oriOut m c) := by
  rw [Cert.KernelIdeal.Value.flushed5, left_at]
  funext y
  obtain ⟨p, q, rfl⟩ : ∃ (p : Fin 400) (q : Fin 128), y = ix2 p q := ⟨y 0, y 1, eq_ix2 y⟩
  show k0_pay4 (F := Ideal) (iblk m c 4 t) (carried m c) (V m c main_v1) (ix2 p q)
    = oriOut m c (((cfg0.win 5).blk t).view.emb (ix2 p q))
  rw [left_emb]
  refine (leftEntry (iblk m c 4 t) (V m c main_arg0) (V m c main_arg1) (V m c main_arg3) (V m c main_v1) p q).trans ?_
  rw [biasRow_left m c 0 ⟨q.val, by have := q.isLt; omega⟩ q.isLt]
  simp only [block_adj_apply m c t p]
  rw [V_main_arg0, V_main_arg2, V_main_arg3]
  rfl

/-- Point t writes back block t of the layer of feature_aug. -/
theorem flushed_right (c : Dev nD) (t : Fin cfg0.N) :
    (dats m 0 c).flushed 6 t = ((cfg0.win 6).blk t).view.read (Elt Ideal) (augOut m c) := by
  rw [Cert.KernelIdeal.Value.flushed6, right_at]
  funext y
  obtain ⟨p, q, rfl⟩ : ∃ (p : Fin 400) (q : Fin 128), y = ix2 p q := ⟨y 0, y 1, eq_ix2 y⟩
  show k0_pay5 (F := Ideal) (iblk m c 4 t) (carried m c) (V m c main_v1) (ix2 p q)
    = augOut m c (((cfg0.win 6).blk t).view.emb (ix2 p q))
  rw [right_emb]
  refine (rightEntry (iblk m c 4 t) (V m c main_arg0) (V m c main_arg1) (V m c main_arg3) (V m c main_v1) p q).trans ?_
  rw [biasRow_right m c 0 ⟨128 + q.val, by have := q.isLt; omega⟩ (Nat.le_add_right 128 q.val)]
  simp only [block_adj_apply m c t p]
  rw [V_main_arg1, V_main_arg2, V_main_arg3]
  have e : (⟨128 + q.val - 128, by have := q.isLt; omega⟩ : Fin 128) = q := Fin.ext (by show 128 + q.val - 128 = q.val; omega)
  rw [e]
  rfl

/-! ## The blocks tile the rows -/

theorem mem_left (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v2_0).slice (win0_5.rect t)).set ↔ _
  rw [View.set_slice_whole, Rect.mem_set_unit]
  exact Iff.rfl

theorem mem_right (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v2_1).slice (win0_6.rect t)).set ↔ _
  rw [View.set_slice_whole, Rect.mem_set_unit]
  exact Iff.rfl

/-- Row r lies in the block of point r / 400. -/
theorem cover_left (i : S10000x128.Idx) :
    ∃ t : Fin cfg0.N, (cfg0.win 5).flush t = true ∧ i ∈ ((cfg0.win 5).blk t).view.set := by
  have h0 : (i 0).val < 10000 := (i 0).isLt
  have h1 : (i 1).val < 128 := (i 1).isLt
  have hN : cfg0.N = 25 := N_0
  have ht : (i 0).val / 400 < cfg0.N := by rw [hN]; omega
  refine ⟨⟨(i 0).val / 400, ht⟩, flush0_5 _, ?_⟩
  rw [mem_left]
  have hi := (index_rows ⟨(i 0).val / 400, ht⟩).2.1
  intro a
  match a with
  | ⟨0, _⟩ =>
    show win0_5.index ⟨(i 0).val / 400, ht⟩ 0 * 400 ≤ (i 0).val ∧ (i 0).val < win0_5.index ⟨(i 0).val / 400, ht⟩ 0 * 400 + 400
    rw [hi.1]; dsimp only; omega
  | ⟨1, _⟩ =>
    show win0_5.index ⟨(i 0).val / 400, ht⟩ 1 * 128 ≤ (i 1).val ∧ (i 1).val < win0_5.index ⟨(i 0).val / 400, ht⟩ 1 * 128 + 128
    rw [hi.2]; omega

theorem cover_right (i : S10000x128.Idx) :
    ∃ t : Fin cfg0.N, (cfg0.win 6).flush t = true ∧ i ∈ ((cfg0.win 6).blk t).view.set := by
  have h0 : (i 0).val < 10000 := (i 0).isLt
  have h1 : (i 1).val < 128 := (i 1).isLt
  have hN : cfg0.N = 25 := N_0
  have ht : (i 0).val / 400 < cfg0.N := by rw [hN]; omega
  refine ⟨⟨(i 0).val / 400, ht⟩, flush0_6 _, ?_⟩
  rw [mem_right]
  have hi := (index_rows ⟨(i 0).val / 400, ht⟩).2.2
  intro a
  match a with
  | ⟨0, _⟩ =>
    show win0_6.index ⟨(i 0).val / 400, ht⟩ 0 * 400 ≤ (i 0).val ∧ (i 0).val < win0_6.index ⟨(i 0).val / 400, ht⟩ 0 * 400 + 400
    rw [hi.1]; dsimp only; omega
  | ⟨1, _⟩ =>
    show win0_6.index ⟨(i 0).val / 400, ht⟩ 1 * 128 ≤ (i 1).val ∧ (i 1).val < win0_6.index ⟨(i 0).val / 400, ht⟩ 1 * 128 + 128
    rw [hi.2]; omega

/-! ## The arrays after the run -/

theorem final_left (c : Dev nD) : (dats m 0 c).arrAt 5 cfg0.N = oriOut m c :=
  (dats m 0 c).arrAt_eq_of_cover 5 (oriOut m c) (fun t _ => flushed_left m c t) cover_left

theorem final_right (c : Dev nD) : (dats m 0 c).arrAt 6 cfg0.N = augOut m c :=
  (dats m 0 c).arrAt_eq_of_cover 6 (augOut m c) (fun t _ => flushed_right m c t) cover_right

/-- Every weakly fair execution of the idealized kernel ends with the two result arrays at the layers of the two
    feature arrays, the arguments unchanged. -/
theorem run : θ_run defs (onTc (τ := τ) (main (F := Ideal))) ⟨m, fun _ => 0, ρ⟩ fun r => ∀ c : Dev nD,
      r.2.mem ((c : Thread nD τ).loc main_v2_0) = oriOut m c
      ∧ r.2.mem ((c : Thread nD τ).loc main_v2_1) = augOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_left m c), (h c).2.1.trans (final_right m c), (h c).2.2⟩)
    (Cert.KernelIdeal.Value.run_blocks m ρ)

end Cert.KernelIdeal.Layer

end
-- ==== Proof.RefLayer.lean ====
/-
  The reference, entry by entry, is the layer: its two dot_generals read at an entry are the double sum, the two
  broadcasts of the bias read the bias at the entry's column, and relu is the larger of that and the zero word.
-/
import proofs.«168208_g18528488915635_cont_8to1_1622_11_alg».proof.Proof.Gen.ReferenceIdeal.Read
import proofs.«168208_g18528488915635_cont_8to1_1622_11_alg».proof.Proof.Spec

noncomputable section

open Idealize.ShloMosaic Idealize.ShloMosaic.TcCoe Idealize.SL.Sem
open Idealize.ShloMosaic.ValueIdx

namespace Cert.ReferenceIdeal.RefValue

open Cert.ReferenceIdeal Cert.ReferenceIdeal.Read

/-! ## The printed index maps are the coordinates -/

theorem adj_idx (i : S10000x128.Idx) (k : Fin 10000) : lidx_main_v1 i k = ix2 (i 0) k :=
  funext fun a => Fin.ext (by match a with | ⟨0, _⟩ => rfl | ⟨1, _⟩ => rfl)
theorem feat_idx (i : S10000x128.Idx) (k : Fin 10000) (j : Fin 128) : lidx_main_v0 (ridx_main_v1 i k) j = ix2 k j :=
  funext fun a => Fin.ext (by match a with | ⟨0, _⟩ => rfl | ⟨1, _⟩ => rfl)
theorem weight_idx (i : S10000x128.Idx) (k : Fin 10000) (j : Fin 128) : ridx_main_v0 (ridx_main_v1 i k) j = ix2 j (i 1) :=
  funext fun a => Fin.ext (by match a with | ⟨0, _⟩ => rfl | ⟨1, _⟩ => rfl)
theorem bias_idx (i : S10000x128.Idx) : idx_main_v4 (idx_main_v5 i) = ix1 (i 1) :=
  funext fun a => Fin.ext (by match a with | ⟨0, _⟩ => rfl)

theorem adj_idx' (i : S10000x128.Idx) (k : Fin 10000) : lidx_main_v3 i k = ix2 (i 0) k :=
  funext fun a => Fin.ext (by match a with | ⟨0, _⟩ => rfl | ⟨1, _⟩ => rfl)
theorem feat_idx' (i : S10000x128.Idx) (k : Fin 10000) (j : Fin 128) : lidx_main_v2 (ridx_main_v3 i k) j = ix2 k j :=
  funext fun a => Fin.ext (by match a with | ⟨0, _⟩ => rfl | ⟨1, _⟩ => rfl)
theorem weight_idx' (i : S10000x128.Idx) (k : Fin 10000) (j : Fin 128) : ridx_main_v2 (ridx_main_v3 i k) j = ix2 j (i 1) :=
  funext fun a => Fin.ext (by match a with | ⟨0, _⟩ => rfl | ⟨1, _⟩ => rfl)
theorem bias_idx' (i : S10000x128.Idx) : idx_main_v7 (idx_main_v8 i) = ix1 (i 1) :=
  funext fun a => Fin.ext (by match a with | ⟨0, _⟩ => rfl)

/-! ## The two results -/

/-- The first result is the layer of feature_ori. -/
theorem ori_eq (x0 : FVec Ideal S10000x128 .f32) (x2 : FVec Ideal S10000x10000 .f32) (x3 : FVec Ideal S128x128 .f32)
    (x4 : FVec Ideal S128 .f32) : val_main_v10 (F := Ideal) x0 x2 x3 x4 = Cert.Spec.layer x0 x2 x3 x4 := by
  funext i
  rw [val_main_v10_apply, val_main_v6_apply, val_main_v1_apply, val_main_v5_apply, val_main_v4_apply,
    val_main_call0_v0_apply, val_main_call0_cst_apply]
  simp only [val_main_v0_apply, adj_idx, feat_idx, weight_idx, bias_idx]
  rfl

/-- The second result is the layer of feature_aug. -/
theorem aug_eq (x1 : FVec Ideal S10000x128 .f32) (x2 : FVec Ideal S10000x10000 .f32) (x3 : FVec Ideal S128x128 .f32)
    (x4 : FVec Ideal S128 .f32) : val_main_v11 (F := Ideal) x1 x2 x3 x4 = Cert.Spec.layer x1 x2 x3 x4 := by
  funext i
  rw [val_main_v11_apply, val_main_v9_apply, val_main_v3_apply, val_main_v8_apply, val_main_v7_apply,
    val_main_call1_v0_apply, val_main_call1_cst_apply]
  simp only [val_main_v2_apply, adj_idx', feat_idx', weight_idx', bias_idx']
  rfl

end Cert.ReferenceIdeal.RefValue

end
-- ==== Proof.lean ====
/-
  Both programs compute one graph-convolution layer twice: relu(adjacency · (feature · weight) + bias) for
  feature_ori and for feature_aug, on [10000, 128] features, a [10000, 10000] adjacency, a [128, 128] weight and a
  bias of 128 entries.

  The kernel walks 25 blocks of 400 adjacency rows. At the first block it fills a carried [10000, 256] buffer with
  feature_ori · weight beside feature_aug · weight; at every block it multiplies the 400 rows by that buffer in ONE
  product, adds the bias laid twice in a row of 256, clips at zero, and writes the left and right halves of the
  [400, 256] result to rows [400 t, 400 t + 400) of the two outputs. The reference forms each product, each sum and
  each clip on whole arrays.

  Over the extended reals the two agree entry by entry with no algebra at all: a product into a zero accumulator
  is the plain sum over the contracted axis on both sides, column q of the carried buffer's left (right) half IS
  column q of feature_ori · weight (feature_aug · weight), column q and column 128 + q of the doubled bias row are
  both bias(q), and row p of block t is row 400 t + p. No sum is re-ordered and no factor is moved, so the
  finiteness of the inputs is never used.

  Spec.lean states the layer; RefLayer.lean reads the reference's run at an entry; Pieces.lean, Blocks.lean,
  Entries.lean and HostRow.lean read what the kernel's grid leaves, Result.lean assembles the two result arrays.
  Idealizing the kernel rewrote none of its operations: the idealized kernel is the kernel's own text read over the
  extended reals, and `preserves` is `True`.
-/
import proofs.«168208_g18528488915635_cont_8to1_1622_11_alg».proof.Defs
import proofs.«168208_g18528488915635_cont_8to1_1622_11_alg».proof.Proof.Gen.Kernel
import proofs.«168208_g18528488915635_cont_8to1_1622_11_alg».proof.Proof.Gen.Kernel.Skeleton
import proofs.«168208_g18528488915635_cont_8to1_1622_11_alg».proof.Proof.Gen.Kernel.Launch
import proofs.«168208_g18528488915635_cont_8to1_1622_11_alg».proof.Proof.Gen.Kernel.Points
import proofs.«168208_g18528488915635_cont_8to1_1622_11_alg».proof.Proof.Gen.Kernel.Frame
import proofs.«168208_g18528488915635_cont_8to1_1622_11_alg».proof.Proof.Gen.KernelIdeal
import proofs.«168208_g18528488915635_cont_8to1_1622_11_alg».proof.Proof.Gen.KernelIdeal.Skeleton
import proofs.«168208_g18528488915635_cont_8to1_1622_11_alg».proof.Proof.Gen.KernelIdeal.Launch
import proofs.«168208_g18528488915635_cont_8to1_1622_11_alg».proof.Proof.Gen.KernelIdeal.Points
import proofs.«168208_g18528488915635_cont_8to1_1622_11_alg».proof.Proof.Gen.KernelIdeal.Frame
import proofs.«168208_g18528488915635_cont_8to1_1622_11_alg».proof.Proof.Gen.ReferenceIdeal
import proofs.«168208_g18528488915635_cont_8to1_1622_11_alg».proof.Proof.Gen.Pre_finite_inputs
import proofs.«168208_g18528488915635_cont_8to1_1622_11_alg».proof.Proof.Gen.KernelIdeal.Value
import proofs.«168208_g18528488915635_cont_8to1_1622_11_alg».proof.Proof.Gen.ReferenceIdeal.Run
import proofs.«168208_g18528488915635_cont_8to1_1622_11_alg».proof.Proof.Gen.ReferenceIdeal.Read
import proofs.«168208_g18528488915635_cont_8to1_1622_11_alg».proof.Proof.Result
import proofs.«168208_g18528488915635_cont_8to1_1622_11_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is straight-line host code: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized. -/
theorem preserves : Cert.preserves_Kernel_KernelIdeal := trivial

/-- From arguments that agree, both programs end with each result array at the layer of its feature array. -/
theorem algebraic : Cert.algebraic_KernelIdeal_ReferenceIdeal := by
  intro m ρ m' ρ' _ hagree
  refine ⟨fun c => Cert.KernelIdeal.Layer.oriOut m c, fun c => Cert.KernelIdeal.Layer.augOut m c,
    Cert.KernelIdeal.Layer.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v10_eq, Cert.ReferenceIdeal.RefValue.ori_eq, (hagree c).1, (hagree c).2.2.1,
      (hagree c).2.2.2.1, (hagree c).2.2.2.2]
  · rw [Cert.ReferenceIdeal.Read.val_main_v11_eq, Cert.ReferenceIdeal.RefValue.aug_eq, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
